-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S1x2048x128 : Shape := ⟨3, ![1, 2048, 128]⟩
abbrev S2048x128 : Shape := ⟨2, ![2048, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x128_S2048x128_S128x128_0_0_1_1_n_n_wf : DotDims.WF S2048x128 S2048x128 S128x128 [0] [0] [1] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)

variable [Facts₀]

def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.TripleProduct.lean ====
/-
  The law that joins the two sides, and the two arrangements themselves.

  For a batch `b`, write `E` for the encoder states (rows `k`, features `d`) and `Q` for the decoder states (rows `q`,
  features `d`). One side forms the scores `S = Q · Eᵀ` first and then `S · E`:
      out[b, q, d₂] = ∑ₖ (∑_d Q[b, q, d] · E[b, k, d]) · E[b, k, d₂];
  the other forms the Gram matrix `G = Eᵀ · E` first and then `Q · G`:
      out[b, q, d₂] = ∑_d Q[b, q, d] · (∑ₖ E[b, k, d] · E[b, k, d₂]).
  These are the two bracketings of the triple product `Q · Eᵀ · E`. Over the reals they agree: distribute the outer factor
  over the inner sum on each side, exchange the two finite sums, and compare term by term. On the extended reals
  distributivity fails at the infinities, so the law is stated for entries that are real numbers, which is what the
  precondition (every input finite) provides.
-/
import Idealize.ShloMosaic.PureOps.Ideal
import Idealize.ShloMosaic.Lib.ValueIdx

noncomputable section

namespace Cert.TripleProduct

open Idealize.ShloMosaic Idealize.ShloMosaic.ValueIdx

/-- The coercion of the reals into the extended reals commutes with a finite sum. -/
theorem coe_sum {ι : Type*} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- The two bracketings of a triple product agree, for real entries read in the extended reals: with `a` a row of the
    first factor, `e` the middle factor (shared by both products) and `f` a column of the last,
    `∑ₖ (∑_d a d · e k d) · f k = ∑_d a d · (∑ₖ e k d · f k)`. -/
theorem reassoc {K D : Type*} [Fintype K] [Fintype D] (a : D → ℝ) (e : K → D → ℝ) (f : K → ℝ) :
    (∑ k, (∑ d, ((a d : ℝ) : EReal) * ((e k d : ℝ) : EReal)) * ((f k : ℝ) : EReal))
      = ∑ d, ((a d : ℝ) : EReal) * ∑ k, ((e k d : ℝ) : EReal) * ((f k : ℝ) : EReal) := by
  simp only [← EReal.coe_mul, ← coe_sum]
  refine congrArg _ ?_
  simp only [Finset.sum_mul, Finset.mul_sum]
  rw [Finset.sum_comm]
  exact Finset.sum_congr rfl fun d _ => Finset.sum_congr rfl fun k _ => by ring

/-- An array of the problem's size, [8, 2048, 128], with extended-real entries. -/
abbrev Arr : Type := (⟨3, ![8, 2048, 128]⟩ : Shape).Idx → EReal

/-- Scores first: `(Q · Eᵀ) · E`, batch by batch. -/
def scoresFirst (enc dec : Arr) : Arr := fun i =>
  ∑ k : Fin 2048, (∑ d : Fin 128, dec (ix3 (i 0) (i 1) d) * enc (ix3 (i 0) k d)) * enc (ix3 (i 0) k (i 2))

/-- Gram matrix first: `Q · (Eᵀ · E)`, batch by batch. -/
def gramFirst (enc dec : Arr) : Arr := fun i =>
  ∑ d : Fin 128, dec (ix3 (i 0) (i 1) d) * ∑ k : Fin 2048, enc (ix3 (i 0) k d) * enc (ix3 (i 0) k (i 2))

/-- With every entry of both arrays a real number, the two arrangements are the same array. -/
theorem scoresFirst_eq_gramFirst (enc dec : Arr) (he : ∀ i, ∃ r : ℝ, enc i = (r : EReal)) (hd : ∀ i, ∃ r : ℝ, dec i = (r : EReal)) :
    scoresFirst enc dec = gramFirst enc dec := by
  choose e he using he
  choose q hq using hd
  funext i
  unfold scoresFirst gramFirst
  simp only [he, hq]
  exact reassoc (fun d => q (ix3 (i 0) (i 1) d)) (fun k d => e (ix3 (i 0) k d)) (fun k => e (ix3 (i 0) k (i 2)))

end Cert.TripleProduct

end
-- ==== Proof.ReferenceScores.lean ====
/-
  The reference, read index by index, is the scores-first arrangement: its first contraction is, at (b, q, k), the sum over
  the feature axis of decoder[b, q, d] · encoder[b, k, d]; its second is, at (b, q, d₂), the sum over the encoder's rows
  of that score times encoder[b, k, d₂].
-/
import proofs.«131194_j12610023981417_2_alg».proof.Proof.Gen.ReferenceIdeal.Read
import proofs.«131194_j12610023981417_2_alg».proof.Proof.TripleProduct

noncomputable section

namespace Cert.ReferenceIdeal.RefValue

open Cert.ReferenceIdeal Cert.ReferenceIdeal.Read Idealize.ShloMosaic Idealize.ShloMosaic.ValueIdx

/-- The reference's result, as a function of the encoder array `x0` and the decoder array `x1`, is `(Q · Eᵀ) · E`. -/
theorem reference_is_scoresFirst (x0 x1 : (⟨S8x2048x128, .f32⟩ : BufTy).Contents (Elt Ideal)) :
    val_main_v1 (F := Ideal) x0 x1 = Cert.TripleProduct.scoresFirst x0 x1 := by
  funext i
  rw [val_main_v1_apply]
  unfold Cert.TripleProduct.scoresFirst
  refine Finset.sum_congr rfl fun k _ => ?_
  rw [val_main_v0_apply]
  have eq : ∀ d : Fin 128, lidx_main_v0 (lidx_main_v1 i k) d = ix3 (i 0) (i 1) d := fun d =>
    funext fun a => Fin.ext (by match a with | ⟨0, _⟩ => rfl | ⟨1, _⟩ => rfl | ⟨2, _⟩ => rfl)
  have ek : ∀ d : Fin 128, ridx_main_v0 (lidx_main_v1 i k) d = ix3 (i 0) k d := fun d =>
    funext fun a => Fin.ext (by match a with | ⟨0, _⟩ => rfl | ⟨1, _⟩ => rfl | ⟨2, _⟩ => rfl)
  have ec : ridx_main_v1 i k = ix3 (i 0) k (i 2) :=
    funext fun a => Fin.ext (by match a with | ⟨0, _⟩ => rfl | ⟨1, _⟩ => rfl | ⟨2, _⟩ => rfl)
  rw [ec]
  refine congrArg (· * x0 (ix3 (i 0) k (i 2))) ?_
  exact Finset.sum_congr rfl fun d _ => by rw [eq d, ek d]; rfl

end Cert.ReferenceIdeal.RefValue

end
-- ==== Proof.BodyGram.lean ====
/-
  What the kernel body stores, entry by entry. The body holds one batch: the encoder block `E` and the decoder block `Q`,
  each [1, 2048, 128]. It drops the unit axis, forms the Gram matrix `G = Eᵀ · E` (a product contracted over the 2048 rows,
  accumulated into zero, [128, 128]), then `Q · G` (contracted over the 128 features, accumulated into zero,
  [2048, 128]), and puts the unit axis back. So the stored entry at (0, r, d₂) is
      ∑_{d₁} Q[0, r, d₁] · (∑ₖ E[0, k, d₁] · E[0, k, d₂]).
-/
import proofs.«131194_j12610023981417_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx

/-- The dimension numbers of `Eᵀ · E`: both operands contracted over their rows. -/
abbrev gramDims : DotDims S2048x128 S2048x128 S128x128 := dot_S2048x128_S2048x128_S128x128_0_0_1_1_n_n
/-- The dimension numbers of `Q · G`: an ordinary matrix product. -/
abbrev applyDims : DotDims S2048x128 S128x128 S2048x128 := dot_S2048x128_S128x128_S2048x128_1_0_0_1_n_n

/-! The operand indices of `Eᵀ · E` at output index `j = (d₁, d₂)` and contraction position `q`: (q, d₁) and (q, d₂). -/

theorem gram_lhs_0 (j : S128x128.Idx) (q : gramDims.contr.Idx) : (gramDims.lhsIdx j q 0).val = (q ⟨0, by decide⟩).val :=
  gramDims.lhsIdx_val_of_single rfl j q
theorem gram_lhs_1 (j : S128x128.Idx) (q : gramDims.contr.Idx) : (gramDims.lhsIdx j q 1).val = (j 0).val := by
  unfold DotDims.lhsIdx
  rw [dif_neg (show ¬(1 : Fin S2048x128.rank) ∈ gramDims.lhsBatch by decide), dif_pos (show (1 : Fin S2048x128.rank) ∈ gramDims.lhsNonContracting by decide)]
  rfl
theorem gram_rhs_0 (j : S128x128.Idx) (q : gramDims.contr.Idx) : (gramDims.rhsIdx j q 0).val = (q ⟨0, by decide⟩).val :=
  gramDims.rhsIdx_val_of_single rfl j q
theorem gram_rhs_1 (j : S128x128.Idx) (q : gramDims.contr.Idx) : (gramDims.rhsIdx j q 1).val = (j 1).val := by
  unfold DotDims.rhsIdx
  rw [dif_neg (show ¬(1 : Fin S2048x128.rank) ∈ gramDims.rhsBatch by decide), dif_pos (show (1 : Fin S2048x128.rank) ∈ gramDims.rhsNonContracting by decide)]
  rfl

/-- The Gram matrix at (d₁, d₂): the sum over the rows `k` of `E[k, d₁] · E[k, d₂]`. -/
theorem gram_apply (e : FVec Ideal S2048x128 .f32) (d1 d2 : Fin 128) :
    matmul gramDims (some .fp32) e e (constant (F := Ideal) S128x128 .f32 0x00000000#32) (ix2 d1 d2)
      = ∑ k : Fin 2048, e (ix2 k d1) * e (ix2 k d2) := by
  simp only [matmul]
  rw [Ideal.matmul_constant_zero_apply, ← Equiv.sum_comp (contrEquiv1 gramDims 2048 rfl rfl).symm]
  refine Finset.sum_congr rfl fun k _ => ?_
  have hk := contrEquiv1_symm_val gramDims 2048 rfl rfl k
  have el : gramDims.lhsIdx (ix2 d1 d2) ((contrEquiv1 gramDims 2048 rfl rfl).symm k) = ix2 k d1 := funext fun a => Fin.ext (by
    match a with
    | ⟨0, _⟩ => exact (gram_lhs_0 _ _).trans hk
    | ⟨1, _⟩ => exact gram_lhs_1 _ _)
  have er : gramDims.rhsIdx (ix2 d1 d2) ((contrEquiv1 gramDims 2048 rfl rfl).symm k) = ix2 k d2 := funext fun a => Fin.ext (by
    match a with
    | ⟨0, _⟩ => exact (gram_rhs_0 _ _).trans hk
    | ⟨1, _⟩ => exact gram_rhs_1 _ _)
  rw [el, er]

/-! The operand indices of `Q · G` at output index `j = (r, d₂)` and contraction position `q`: (r, q) and (q, d₂). -/

theorem apply_lhs_0 (j : S2048x128.Idx) (q : applyDims.contr.Idx) : (applyDims.lhsIdx j q 0).val = (j 0).val := by
  unfold DotDims.lhsIdx
  rw [dif_neg (show ¬(0 : Fin S2048x128.rank) ∈ applyDims.lhsBatch by decide), dif_pos (show (0 : Fin S2048x128.rank) ∈ applyDims.lhsNonContracting by decide)]
  rfl
theorem apply_lhs_1 (j : S2048x128.Idx) (q : applyDims.contr.Idx) : (applyDims.lhsIdx j q 1).val = (q ⟨0, by decide⟩).val :=
  applyDims.lhsIdx_val_of_single rfl j q
theorem apply_rhs_0 (j : S2048x128.Idx) (q : applyDims.contr.Idx) : (applyDims.rhsIdx j q 0).val = (q ⟨0, by decide⟩).val :=
  applyDims.rhsIdx_val_of_single rfl j q
theorem apply_rhs_1 (j : S2048x128.Idx) (q : applyDims.contr.Idx) : (applyDims.rhsIdx j q 1).val = (j 1).val := by
  unfold DotDims.rhsIdx
  rw [dif_neg (show ¬(1 : Fin S128x128.rank) ∈ applyDims.rhsBatch by decide), dif_pos (show (1 : Fin S128x128.rank) ∈ applyDims.rhsNonContracting by decide)]
  rfl

/-- A matrix `x` times a [128, 128] matrix `g`, at (r, d₂): the sum over `d₁` of `x[r, d₁] · g[d₁, d₂]`. -/
theorem apply_gram (x : FVec Ideal S2048x128 .f32) (g : FVec Ideal S128x128 .f32) (r : Fin 2048) (d2 : Fin 128) :
    matmul applyDims (some .fp32) x g (constant (F := Ideal) S2048x128 .f32 0x00000000#32) (ix2 r d2)
      = ∑ d1 : Fin 128, x (ix2 r d1) * g (ix2 d1 d2) := by
  simp only [matmul]
  rw [Ideal.matmul_constant_zero_apply, ← Equiv.sum_comp (contrEquiv1 applyDims 128 rfl rfl).symm]
  refine Finset.sum_congr rfl fun k _ => ?_
  have hk := contrEquiv1_symm_val applyDims 128 rfl rfl k
  have el : applyDims.lhsIdx (ix2 r d2) ((contrEquiv1 applyDims 128 rfl rfl).symm k) = ix2 r k := funext fun a => Fin.ext (by
    match a with
    | ⟨0, _⟩ => exact apply_lhs_0 _ _
    | ⟨1, _⟩ => exact (apply_lhs_1 _ _).trans hk)
  have er : applyDims.rhsIdx (ix2 r d2) ((contrEquiv1 applyDims 128 rfl rfl).symm k) = ix2 k d2 := funext fun a => Fin.ext (by
    match a with
    | ⟨0, _⟩ => exact (apply_rhs_0 _ _).trans hk
    | ⟨1, _⟩ => exact apply_rhs_1 _ _)
  rw [el, er]

/-- The stored value at (u, r, d₂), from the loaded encoder block `v0` and decoder block `v2`:
    `∑_{d₁} Q[0, r, d₁] · (∑ₖ E[0, k, d₁] · E[0, k, d₂])`. -/
theorem stored_apply (v0 v2 : Vec Ideal S1x2048x128 .f32) (u : Fin 1) (r : Fin 2048) (d2 : Fin 128) :
    k0_pay1 (F := Ideal) v0 v2 (ix3 u r d2)
      = ∑ d1 : Fin 128, v2 (ix3 (0 : Fin 1) r d1) * ∑ k : Fin 2048, v0 (ix3 (0 : Fin 1) k d1) * v0 (ix3 (0 : Fin 1) k d2) := by
  unfold k0_pay1
  refine (shapeCast_ab_1ab_apply _ _ u r d2).trans ?_
  refine (apply_gram _ _ r d2).trans ?_
  refine Finset.sum_congr rfl fun d1 _ => ?_
  refine (congrArg₂ (· * ·) (shapeCast_1ab_ab_apply v2 _ r d1) (gram_apply _ d1 d2)).trans ?_
  refine congrArg (v2 (ix3 (0 : Fin 1) r d1) * ·) ?_
  exact Finset.sum_congr rfl fun k _ =>
    congrArg₂ (· * ·) (shapeCast_1ab_ab_apply v0 _ k d1) (shapeCast_1ab_ab_apply v0 _ k d2)

end Cert.KernelIdeal.BodyValue

end
-- ==== Proof.BatchBlocks.lean ====
/-
  From blocks to the array. The grid has one point per batch; at point `t` every window's block is batch `t` whole (block
  index (t, 0, 0), block size [1, 2048, 128]). The body's stored value at (0, r, d₂), computed from the encoder's and the
  decoder's batch `t`, is the Gram-first arrangement of the two whole arrays at (t, r, d₂); the eight blocks tile the result
  array, so after the run the result array is that arrangement everywhere.
-/
import proofs.«131194_j12610023981417_2_alg».proof.Proof.Gen.KernelIdeal.Value
import proofs.«131194_j12610023981417_2_alg».proof.Proof.BodyGram
import proofs.«131194_j12610023981417_2_alg».proof.Proof.TripleProduct
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.TripleProduct (gramFirst Arr)

variable (m : (ℓ : Loc nD τ sig) → Buf (Elt Ideal) ℓ) (ρ : Dev nD → PrngReg)

theorem zero_offsets : (![0, 0, 0] : Fin 3 → Nat) = fun _ => 0 := funext fun a => by fin_cases a <;> rfl

/-- At point `t` each of the three windows is on block (t, 0, 0): batch `t`, whole. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The body's stored value from blocks that are batch `b` of two arrays is the Gram-first arrangement of the arrays at
    that batch. -/
theorem batch_value (enc dec : Arr) (x0 x1 : Vec Ideal S1x2048x128 .f32) (b : Fin 8)
    (h0 : ∀ (k : Fin 2048) (d : Fin 128), x0 (ix3 (0 : Fin 1) k d) = enc (ix3 b k d))
    (h1 : ∀ (k : Fin 2048) (d : Fin 128), x1 (ix3 (0 : Fin 1) k d) = dec (ix3 b k d))
    (y : S1x2048x128.Idx) (i : S8x2048x128.Idx)
    (hi0 : (i 0).val = b.val) (hi1 : (i 1).val = (y 1).val) (hi2 : (i 2).val = (y 2).val) :
    k0_pay1 (F := Ideal) x0 x1 y = gramFirst enc dec i := by
  obtain ⟨u, r, d2, rfl⟩ : ∃ (u : Fin 1) (r : Fin 2048) (d2 : Fin 128), y = ix3 u r d2 := ⟨y 0, y 1, y 2, eq_ix3 y⟩
  obtain ⟨b', r', d2', rfl⟩ : ∃ (b' : Fin 8) (r' : Fin 2048) (d2' : Fin 128), i = ix3 b' r' d2' := ⟨i 0, i 1, i 2, eq_ix3 i⟩
  obtain rfl : b' = b := Fin.ext hi0
  obtain rfl : r' = r := Fin.ext hi1
  obtain rfl : d2' = d2 := Fin.ext hi2
  rw [BodyValue.stored_apply]
  unfold gramFirst
  simp only [h0, h1]

/-- What point `t` writes back is block `t` of the Gram-first arrangement of the argument arrays. -/
theorem flushed_eq (c : Dev nD) (t : Fin cfg0.N) :
    (dats m 0 c).flushed 2 t = ((cfg0.win 2).blk t).view.read (Elt Ideal) (gramFirst (V m c main_arg0) (V m c main_arg1)) := by
  rw [Value.flushed2]
  unfold out0_2
  rw [View.canon_unit_zero zero_offsets]
  simp only [View.ld_unit_zero (S := S1x2048x128) zero_offsets]
  obtain ⟨a00, a01, a02, a10, a11, a12, a20, a21, a22⟩ := block_index t
  have ht : t.val < 8 := lt_of_lt_of_eq t.isLt (show cfg0.N = 8 from N_0)
  funext y
  show k0_pay1 (iblk m c 0 t) (iblk m c 1 t) y = gramFirst (V m c main_arg0) (V m c main_arg1) (((cfg0.win 2).blk t).view.emb y)
  refine batch_value (V m c main_arg0) (V m c main_arg1) (iblk m c 0 t) (iblk m c 1 t) ⟨t.val, ht⟩ (fun k d => ?_) (fun k d => ?_) y _ ?_ ?_ ?_
  · show V m c main_arg0 (((cfg0.win 0).blk t).view.emb (ix3 (0 : Fin 1) k d)) = V m c main_arg0 (ix3 (⟨t.val, ht⟩ : Fin 8) k d)
    refine congrArg _ (funext fun a => Fin.ext ?_)
    match a with
    | ⟨0, _⟩ => show win0_0.index t (0 : Fin 3) * 1 + 1 * 0 = t.val; omega
    | ⟨1, _⟩ => show win0_0.index t (1 : Fin 3) * 2048 + 1 * k.val = k.val; omega
    | ⟨2, _⟩ => show win0_0.index t (2 : Fin 3) * 128 + 1 * d.val = d.val; omega
  · show V m c main_arg1 (((cfg0.win 1).blk t).view.emb (ix3 (0 : Fin 1) k d)) = V m c main_arg1 (ix3 (⟨t.val, ht⟩ : Fin 8) k d)
    refine congrArg _ (funext fun a => Fin.ext ?_)
    match a with
    | ⟨0, _⟩ => show win0_1.index t (0 : Fin 3) * 1 + 1 * 0 = t.val; omega
    | ⟨1, _⟩ => show win0_1.index t (1 : Fin 3) * 2048 + 1 * k.val = k.val; omega
    | ⟨2, _⟩ => show win0_1.index t (2 : Fin 3) * 128 + 1 * d.val = d.val; omega
  · show win0_2.index t (0 : Fin 3) * 1 + 1 * (y 0).val = t.val
    have hy : (y 0).val < 1 := (y 0).isLt
    omega
  · show win0_2.index t (1 : Fin 3) * 2048 + 1 * (y 1).val = (y 1).val
    omega
  · show win0_2.index t (2 : Fin 3) * 128 + 1 * (y 2).val = (y 2).val
    omega

/-- An index of the result array is in point `t`'s block iff each coordinate is in the block's range on its axis. -/
theorem mem_block (t : Fin cfg0.N) (i : S8x2048x128.Idx) :
    i ∈ ((cfg0.win 2).blk t).view.set ↔ ∀ a : Fin 3, win0_2.index t a * S1x2048x128.size a ≤ (i a).val ∧ (i a).val < win0_2.index t a * S1x2048x128.size a + S1x2048x128.size a := by
  show i ∈ ((View.whole main_v0).slice (win0_2.rect t)).set ↔ _
  rw [View.set_slice_whole, Rect.mem_set_unit]
  exact Iff.rfl

/-- Every index of the result array lies in the block of the point that is its batch. -/
theorem covered (i : S8x2048x128.Idx) : ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  let t : Fin cfg0.N := ⟨(i 0).val, lt_of_lt_of_eq hi0 (show cfg0.N = 8 from N_0).symm⟩
  obtain ⟨-, -, -, -, -, -, a20, a21, a22⟩ := block_index t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; rw [a20]; show (i 0).val * 1 ≤ (i 0).val ∧ (i 0).val < (i 0).val * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- The result array after the run is the Gram-first arrangement of the two argument arrays. -/
theorem final (c : Dev nD) :
    (dats m 0 c).arrAt 2 cfg0.N = gramFirst (m ((c : Thread nD τ).loc main_arg0)) (m ((c : Thread nD τ).loc main_arg1)) :=
  (dats m 0 c).arrAt_eq_of_cover 2 (gramFirst (V m c main_arg0) (V m c main_arg1)) (fun t _ => flushed_eq m c t) covered

/-- The kernel's run, read: the result array at the Gram-first arrangement of the arguments, the arguments unchanged. -/
theorem run : θ_run defs (onTc (τ := τ) (main (F := Ideal))) ⟨m, fun _ => 0, ρ⟩ fun r => ∀ c : Dev nD,
      r.2.mem ((c : Thread nD τ).loc main_v0) = gramFirst (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.FiniteEntries.lean ====
/-
  What the precondition gives: every entry of both inputs is a real number. The precondition is the conjunction of two
  tests, one per input, each "all entries satisfy |x| < +∞"; on the extended reals |x| = max x (−x), which is +∞ exactly
  at the two infinities, so an entry passing the test is the image of a real.
-/
import proofs.«131194_j12610023981417_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- If the precondition's function is all ones on two arrays, every entry of each is a real number. -/
theorem all_real (x0 x1 : FVec Ideal S8x2048x128 .f32) (h : fn (F := Ideal) x0 x1 = fun _ => 1#1) :
    (∀ i, ∃ r : ℝ, x0 i = (r : EReal)) ∧ (∀ i, ∃ r : ℝ, x1 i = (r : EReal)) := by
  have h0 := congrFun h ix0
  dsimp only [fn] at h0
  obtain ⟨ha, hb⟩ := IntOp.andi_eq_one.1 h0
  refine ⟨fun i => ?_, fun i => ?_⟩
  · exact real_of_abs_lt_inf _ (Host.reduce_andi_all _ _ _ _ _ ha i)
  · exact real_of_abs_lt_inf _ (Host.reduce_andi_all _ _ _ _ _ hb i)

end Cert.Pre_finite_inputs.Finite

end
-- ==== Proof.lean ====
/-
  The certificate of a two-product attention score against its reference.

  For each of 8 batches the inputs are an encoder matrix `E` and a decoder matrix `Q`, both [2048, 128]. The reference
  computes the scores `Q · Eᵀ` ([2048, 2048]) and then multiplies them by `E`; the kernel computes the Gram matrix
  `Eᵀ · E` ([128, 128]) and then multiplies `Q` by it. Both are the triple product `Q · Eᵀ · E`, bracketed differently.

  The three frames are the generated ones (the reference's is its generated run with the result dropped). The idealized
  kernel is the kernel's own text, so nothing is owed for the idealization. For the value claim: the kernel's run ends
  with the result array at the Gram-first arrangement of the argument arrays (the body's two products read at an index,
  each grid point's block being one whole batch, the eight blocks tiling the array); the reference's run ends at the
  scores-first arrangement (its two contractions read at an index); and the two arrangements agree when every entry is
  a real number, by distributing and exchanging the two finite sums — which is where the precondition, every input
  finite, is used.
-/
import proofs.«131194_j12610023981417_2_alg».proof.Defs
import proofs.«131194_j12610023981417_2_alg».proof.Proof.Gen.Kernel
import proofs.«131194_j12610023981417_2_alg».proof.Proof.Gen.Kernel.Frame
import proofs.«131194_j12610023981417_2_alg».proof.Proof.Gen.KernelIdeal
import proofs.«131194_j12610023981417_2_alg».proof.Proof.Gen.KernelIdeal.Frame
import proofs.«131194_j12610023981417_2_alg».proof.Proof.Gen.KernelIdeal.Value
import proofs.«131194_j12610023981417_2_alg».proof.Proof.Gen.ReferenceIdeal
import proofs.«131194_j12610023981417_2_alg».proof.Proof.Gen.ReferenceIdeal.Run
import proofs.«131194_j12610023981417_2_alg».proof.Proof.Gen.ReferenceIdeal.Read
import proofs.«131194_j12610023981417_2_alg».proof.Proof.Gen.Pre_finite_inputs
import proofs.«131194_j12610023981417_2_alg».proof.Proof.TripleProduct
import proofs.«131194_j12610023981417_2_alg».proof.Proof.ReferenceScores
import proofs.«131194_j12610023981417_2_alg».proof.Proof.BatchBlocks
import proofs.«131194_j12610023981417_2_alg».proof.Proof.FiniteEntries

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- Both runs end with the result at `Q · (Eᵀ · E)` of the arguments: the kernel's directly, the reference's at
    `(Q · Eᵀ) · E`, which is the same array because every entry of the (agreeing) arguments is a real number. -/
theorem algebraic : Cert.algebraic_KernelIdeal_ReferenceIdeal := by
  intro m ρ m' ρ' hpre hagree
  refine ⟨fun c => Cert.TripleProduct.gramFirst (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_is_scoresFirst, (hagree c).1, (hagree c).2]
  obtain ⟨he, hd⟩ := Cert.Pre_finite_inputs.Finite.all_real _ _ (hpre c)
  exact Cert.TripleProduct.scoresFirst_eq_gramFirst _ _ he hd

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
